-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000 .f32) (main_arg2 : FVec F S64x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S4000x1 : Shape := ⟨2, ![4000, 1]⟩
abbrev S4000x64 : Shape := ⟨2, ![4000, 64]⟩

abbrev nBuf : Space → Nat
  | .hbm => 24
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S1x64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4000x1, .f32⟩
  | .local _ .vmem, ⟨7, _⟩ => ⟨S4000x1, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bcast_S_S100000x64 : S_.BroadcastsInDim S100000x64 (![] : Fin 0 → Fin S100000x64.rank)
  shapeCasts_S5000x64_S5000x64 : S5000x64.ShapeCasts S5000x64
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S1600000x1.size a
  hwx1_0 : ∀ i : grid1.Coords, EltTy.bits .f32 = 32 ∨ (Rect.block (s := S1600000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.MainRun.lean ====
/-
  The run of the three-launch program, read at its result.

  The program is six segments: a stretch of host operations, the dense-transform launch, a second
  stretch (the row gather among it), the edge-scaling launch, a third stretch (the scatter-add), and the
  rectifier launch.  The contents of every buffer at each boundary are a fold from the launch memory
  (`Gen.W0 … Gen.W6`): a host stretch applies its operations, a launch replaces its arrays by what its
  write-backs leave.  Every weakly fair execution terminates, and in its final state every buffer the
  thread holds reads the last fold `Gen.W6`; in particular the result buffer does, and the six arguments
  are as launched.
-/
import proofs.«170171_j82815559402091_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in its final state the result
    buffer holds the last boundary's contents of it, and each argument is as launched. -/
theorem run_result : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-- The result buffer is the rectifier launch's output array: the last fold at it is what that launch's
    write-backs leave. -/
theorem W6_result (c : Dev nD) :
    W6 m ρ c (Proc.devRef .tc main_v14) = (dat2 (V5 m ρ) c).arrAt 1 cfg2.N :=
  W6_arr m ρ c 1

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.Dense.lean ====
/-
  The dense-transform launch, as one function of the arrays it finds.

  The launch walks 20 row blocks of 5000 rows. At block t the body multiplies rows 5000·t … 5000·t + 4999 of the
  feature matrix by the whole 64 × 64 weight matrix (the operands' change of float format is the identity at the ideal
  values), adds the bias row spread over the block's rows, and the block is written back to the same rows of the output.
  So entry (r, c) of the output array is  Σ_k X(r, k) · W(k, c) + B(0, c)  whichever block r falls in, and the blocks
  tile the 100000 rows: the output array ends holding that function of the three arrays.
-/
import proofs.«170171_j82815559402091_1_alg».proof.Proof.Gen.KernelIdeal.Frame
import proofs.«170171_j82815559402091_1_alg».proof.Proof.LibPlainMatmul
import proofs.«170171_j82815559402091_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer access are all zero. -/
theorem off2_zero : (![0, 0] : Fin 2 → Nat) = fun _ => 0 := funext fun a => by fin_cases a <;> rfl

/-- The transformed features: entry (r, c) is the dot product of row r of `x` with column c of `w`, plus the
    bias row's entry of column c. -/
def denseOut (x : S100000x64.Idx → EReal) (w : S64x64.Idx → EReal) (b : S1x64.Idx → EReal) : S100000x64.Idx → EReal :=
  fun i => (∑ k : Fin 64, x (ix2 (i 0) k) * w (ix2 k (i 1))) + b (ix2 0 (i 1))

/-- What the body stores, at (p, q) of its block: the block row p of the features against column q of the weights,
    plus the bias of column q. -/
theorem dense_payload (x0 : Vec Ideal S5000x64 .f32) (x1 : Vec Ideal S64x64 .f32) (x2 : Vec Ideal S1x64 .f32)
    (p : Fin 5000) (q : Fin 64) :
    k0_pay1 (F := Ideal) x0 x1 x2 (ix2 p q) = (∑ k : Fin 64, x0 (ix2 p k) * x1 (ix2 k q)) + x2 (ix2 0 q) := by
  unfold k0_pay1
  refine (addf_apply _ _ _).trans (congrArg₂ (· + ·) ?_ ?_)
  · exact matmul_plain_zero_apply 5000 64 64 none _ _ p q
  · exact (Cert.LibRowBroadcast.broadcastTo_1b_ab_apply _ _ p q 0).trans (congrFun (shapeCast_self x2 _) _)

variable (V : (c : Dev nD) → (b : Ref sig .tc) → Buf (Elt Ideal) ((c : Thread nD τ).loc b))

/-- The launch's index maps over its 20 points: the feature block and the output block of point t are row block t,
    the weights and the bias row are always block 0. -/
theorem dense_idx : ∀ t : Fin cfg0.N,
    win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, _)

/-- The feature block of point t is rows 5000·t … 5000·t + 4999 of the feature matrix. -/
theorem dense_x_block (c : Dev nD) (t : Fin cfg0.N) (y : S5000x64.Idx) (i : S100000x64.Idx)
    (h0 : (i 0).val = 5000 * t.val + (y 0).val) (h1 : (i 1).val = (y 1).val) :
    (iblk0 V c 0 t : S5000x64.Idx → EReal) y = (V c main_arg0 : S100000x64.Idx → EReal) i := by
  obtain ⟨e0, e1, -⟩ := dense_idx t
  unfold iblk0
  rw [View.read_apply]
  refine congrArg (V c main_arg0 : S100000x64.Idx → EReal) (funext fun a => Fin.ext ?_)
  match a with
  | ⟨0, _⟩ => show win0_0.index t 0 * 5000 + 1 * (y 0).val = (i 0).val; omega
  | ⟨1, _⟩ => show win0_0.index t 1 * 64 + 1 * (y 1).val = (i 1).val; omega

/-- The weight block of every point is the whole weight matrix. -/
theorem dense_w_block (c : Dev nD) (t : Fin cfg0.N) (y i : S64x64.Idx)
    (h0 : (i 0).val = (y 0).val) (h1 : (i 1).val = (y 1).val) :
    (iblk0 V c 1 t : S64x64.Idx → EReal) y = (V c main_arg2 : S64x64.Idx → EReal) i := by
  obtain ⟨-, -, e0, e1, -⟩ := dense_idx t
  unfold iblk0
  rw [View.read_apply]
  refine congrArg (V c main_arg2 : S64x64.Idx → EReal) (funext fun a => Fin.ext ?_)
  match a with
  | ⟨0, _⟩ => show win0_1.index t 0 * 64 + 1 * (y 0).val = (i 0).val; omega
  | ⟨1, _⟩ => show win0_1.index t 1 * 64 + 1 * (y 1).val = (i 1).val; omega

/-- The bias block of every point is the whole bias row. -/
theorem dense_b_block (c : Dev nD) (t : Fin cfg0.N) (y i : S1x64.Idx)
    (h0 : (i 0).val = (y 0).val) (h1 : (i 1).val = (y 1).val) :
    (iblk0 V c 2 t : S1x64.Idx → EReal) y = (V c main_v0 : S1x64.Idx → EReal) i := by
  obtain ⟨-, -, -, -, e0, e1, -⟩ := dense_idx t
  unfold iblk0
  rw [View.read_apply]
  refine congrArg (V c main_v0 : S1x64.Idx → EReal) (funext fun a => Fin.ext ?_)
  match a with
  | ⟨0, _⟩ => show win0_2.index t 0 * 1 + 1 * (y 0).val = (i 0).val; omega
  | ⟨1, _⟩ => show win0_2.index t 1 * 64 + 1 * (y 1).val = (i 1).val; omega

/-- What point t writes back is block t of `denseOut` of the arrays the launch finds. -/
theorem dense_flushed (c : Dev nD) (t : Fin cfg0.N) :
    (dat0 V c).flushed 3 t
      = ((cfg0.win 3).blk t).view.read (Elt Ideal) (denseOut (V c main_arg0) (V c main_arg2) (V c main_v0)) := by
  show (cfg0.win 3).cut (grid0.coords t) ((dat0 V c).after 3 t) = _
  rw [after0_3]
  unfold out0_3
  rw [View.canon_unit_zero off2_zero]
  simp only [View.ld_unit_zero (S := S5000x64) off2_zero, View.ld_unit_zero (S := S64x64) off2_zero,
    View.ld_unit_zero (S := S1x64) off2_zero]
  obtain ⟨-, -, -, -, -, -, e0, e1⟩ := dense_idx t
  funext j
  obtain ⟨p, q, rfl⟩ : ∃ (p : Fin 5000) (q : Fin 64), j = ix2 p q := ⟨j 0, j 1, eq_ix2 j⟩
  rw [View.read_apply]
  refine (dense_payload _ _ _ p q).trans ?_
  unfold denseOut
  have r0 : ((((cfg0.win 3).blk t).view.emb (ix2 p q)) 0).val = win0_3.index t 0 * 5000 + 1 * p.val := rfl
  have r1 : ((((cfg0.win 3).blk t).view.emb (ix2 p q)) 1).val = win0_3.index t 1 * 64 + 1 * q.val := rfl
  refine congrArg₂ (· + ·) (Finset.sum_congr rfl fun k _ => congrArg₂ (· * ·) ?_ ?_) ?_
  · exact dense_x_block V c t (ix2 p k) _ (by show _ = 5000 * t.val + p.val; rw [r0]; omega) rfl
  · exact dense_w_block V c t (ix2 k q) _ rfl (by show _ = q.val; rw [r1]; omega)
  · exact dense_b_block V c t (ix2 0 q) _ rfl (by show _ = q.val; rw [r1]; omega)

/-- An index of the output array is in point t's block iff each coordinate is in the block's range on its axis. -/
theorem dense_mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Row r of the output array is in the block of point r / 5000, and every point writes its block back. -/
theorem dense_cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 20 := N_0
  have ht : (i 0).val / 5000 < cfg0.N := by rw [hN]; omega
  obtain ⟨-, -, -, -, -, -, e0, e1⟩ := dense_idx ⟨(i 0).val / 5000, ht⟩
  refine ⟨⟨(i 0).val / 5000, ht⟩, flush0_3 _, ?_⟩
  rw [dense_mem_blk]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val
      ∧ (i 1).val < win0_3.index ⟨(i 0).val / 5000, ht⟩ 1 * 64 + 64
    rw [e1]; omega

/-- THE OUTPUT ARRAY of the dense-transform launch, whatever arrays it is entered with. -/
theorem dense_final (c : Dev nD) :
    (dat0 V c).arrAt 3 cfg0.N = denseOut (V c main_arg0) (V c main_arg2) (V c main_v0) :=
  (dat0 V c).arrAt_eq_of_cover 3 _ (fun t _ => dense_flushed V c t) dense_cover

end Cert.KernelIdeal.Hand

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Scale.lean ====
/-
  The edge-scaling launch, as one function of the arrays it finds.

  The launch walks 400 blocks of 4000 edges. At block t the body takes edges 4000·t … 4000·t + 3999 of the weight
  column and the same rows of the gathered features, spreads each edge's weight over the 64 feature columns and
  multiplies; the block is written back to the same rows of the output. So entry (e, c) of the output array is
  A(e, 0) · G(e, c), and the blocks tile the 1600000 edges.
-/
import proofs.«170171_j82815559402091_1_alg».proof.Proof.Gen.KernelIdeal.Frame
import proofs.«170171_j82815559402091_1_alg».proof.Proof.LibKeepdims
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer access are all zero. -/
theorem off2_zero' : (![0, 0] : Fin 2 → Nat) = fun _ => 0 := funext fun a => by fin_cases a <;> rfl

/-- The scaled messages: row e of the gathered features times edge e's weight. -/
def scaleOut (a : S1600000x1.Idx → EReal) (g : S1600000x64.Idx → EReal) : S1600000x64.Idx → EReal :=
  fun i => a (ix2 (i 0) 0) * g i

/-- What the body stores, at (p, q) of its block: the block's weight of row p times the block's feature (p, q). -/
theorem scale_payload (x0 : Vec Ideal S4000x1 .f32) (x1 : Vec Ideal S4000x64 .f32) (p : Fin 4000) (q : Fin 64) :
    k1_pay1 (F := Ideal) x0 x1 (ix2 p q) = x0 (ix2 p 0) * x1 (ix2 p q) := by
  unfold k1_pay1
  refine (mulf_apply _ _ _).trans (congrArg₂ (· * ·) ?_ ?_)
  · exact (Cert.LibKeepdims.broadcastTo_a1_ab_apply _ _ p q 0).trans (congrFun (shapeCast_self x0 _) _)
  · exact congrFun (shapeCast_self x1 _) _

variable (V : (c : Dev nD) → (b : Ref sig .tc) → Buf (Elt Ideal) ((c : Thread nD τ).loc b))

/-- The launch's index maps over its 400 points: all three blocks of point t are row block t. -/
theorem scale_idx : ∀ t : Fin cfg1.N,
    win1_0.index t 0 = t.val ∧ win1_0.index t 1 = 0 ∧ win1_1.index t 0 = t.val ∧ win1_1.index t 1 = 0
    ∧ win1_2.index t 0 = t.val ∧ win1_2.index t 1 = 0 :=
  (by decide +kernel : ∀ t : Fin grid1.N, _)

/-- The weight block of point t is rows 4000·t … 4000·t + 3999 of the weight column. -/
theorem scale_a_block (c : Dev nD) (t : Fin cfg1.N) (y : S4000x1.Idx) (i : S1600000x1.Idx)
    (h0 : (i 0).val = 4000 * t.val + (y 0).val) (h1 : (i 1).val = (y 1).val) :
    (iblk1 V c 0 t : S4000x1.Idx → EReal) y = (V c main_v9 : S1600000x1.Idx → EReal) i := by
  obtain ⟨e0, e1, -⟩ := scale_idx t
  unfold iblk1
  rw [View.read_apply]
  refine congrArg (V c main_v9 : S1600000x1.Idx → EReal) (funext fun a => Fin.ext ?_)
  match a with
  | ⟨0, _⟩ => show win1_0.index t 0 * 4000 + 1 * (y 0).val = (i 0).val; omega
  | ⟨1, _⟩ => show win1_0.index t 1 * 1 + 1 * (y 1).val = (i 1).val; omega

/-- The feature block of point t is rows 4000·t … 4000·t + 3999 of the gathered features. -/
theorem scale_g_block (c : Dev nD) (t : Fin cfg1.N) (y : S4000x64.Idx) (i : S1600000x64.Idx)
    (h0 : (i 0).val = 4000 * t.val + (y 0).val) (h1 : (i 1).val = (y 1).val) :
    (iblk1 V c 1 t : S4000x64.Idx → EReal) y = (V c main_v8 : S1600000x64.Idx → EReal) i := by
  obtain ⟨-, -, e0, e1, -⟩ := scale_idx t
  unfold iblk1
  rw [View.read_apply]
  refine congrArg (V c main_v8 : S1600000x64.Idx → EReal) (funext fun a => Fin.ext ?_)
  match a with
  | ⟨0, _⟩ => show win1_1.index t 0 * 4000 + 1 * (y 0).val = (i 0).val; omega
  | ⟨1, _⟩ => show win1_1.index t 1 * 64 + 1 * (y 1).val = (i 1).val; omega

/-- What point t writes back is block t of `scaleOut` of the arrays the launch finds. -/
theorem scale_flushed (c : Dev nD) (t : Fin cfg1.N) :
    (dat1 V c).flushed 2 t = ((cfg1.win 2).blk t).view.read (Elt Ideal) (scaleOut (V c main_v9) (V c main_v8)) := by
  show (cfg1.win 2).cut (grid1.coords t) ((dat1 V c).after 2 t) = _
  rw [after1_2]
  unfold out1_2
  rw [View.canon_unit_zero off2_zero']
  simp only [View.ld_unit_zero (S := S4000x1) off2_zero', View.ld_unit_zero (S := S4000x64) off2_zero']
  obtain ⟨-, -, -, -, e0, e1⟩ := scale_idx t
  funext j
  obtain ⟨p, q, rfl⟩ : ∃ (p : Fin 4000) (q : Fin 64), j = ix2 p q := ⟨j 0, j 1, eq_ix2 j⟩
  rw [View.read_apply]
  refine (scale_payload _ _ p q).trans ?_
  unfold scaleOut
  have r0 : ((((cfg1.win 2).blk t).view.emb (ix2 p q)) 0).val = win1_2.index t 0 * 4000 + 1 * p.val := rfl
  have r1 : ((((cfg1.win 2).blk t).view.emb (ix2 p q)) 1).val = win1_2.index t 1 * 64 + 1 * q.val := rfl
  refine congrArg₂ (· * ·) ?_ ?_
  · exact scale_a_block V c t (ix2 p 0) _ (by show _ = 4000 * t.val + p.val; rw [r0]; omega) rfl
  · exact scale_g_block V c t (ix2 p q) _ (by show _ = 4000 * t.val + p.val; rw [r0]; omega)
      (by show _ = q.val; rw [r1]; omega)

/-- An index of the output array is in point t's block iff each coordinate is in the block's range on its axis. -/
theorem scale_mem_blk (t : Fin cfg1.N) (i : S1600000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v10).slice (win1_2.rect t)).set ↔ _
  rw [View.set_slice_whole, Rect.mem_set_unit]
  exact Iff.rfl

/-- Edge e of the output array is in the block of point e / 4000, and every point writes its block back. -/
theorem scale_cover (i : S1600000x64.Idx) :
    ∃ t : Fin cfg1.N, (cfg1.win 2).flush t = true ∧ i ∈ ((cfg1.win 2).blk t).view.set := by
  have hi0 : (i 0).val < 1600000 := idx2_lt0 i
  have hi1 : (i 1).val < 64 := idx2_lt1 i
  have hN : cfg1.N = 400 := N_1
  have ht : (i 0).val / 4000 < cfg1.N := by rw [hN]; omega
  obtain ⟨-, -, -, -, e0, e1⟩ := scale_idx ⟨(i 0).val / 4000, ht⟩
  refine ⟨⟨(i 0).val / 4000, ht⟩, flush1_2 _, ?_⟩
  rw [scale_mem_blk]
  intro a
  match a with
  | ⟨0, _⟩ =>
    show win1_2.index ⟨(i 0).val / 4000, ht⟩ 0 * 4000 ≤ (i 0).val
      ∧ (i 0).val < win1_2.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_2.index ⟨(i 0).val / 4000, ht⟩ 1 * 64 ≤ (i 1).val
      ∧ (i 1).val < win1_2.index ⟨(i 0).val / 4000, ht⟩ 1 * 64 + 64
    rw [e1]; omega

/-- THE OUTPUT ARRAY of the edge-scaling launch, whatever arrays it is entered with. -/
theorem scale_final (c : Dev nD) :
    (dat1 V c).arrAt 2 cfg1.N = scaleOut (V c main_v9) (V c main_v8) :=
  (dat1 V c).arrAt_eq_of_cover 2 _ (fun t _ => scale_flushed V c t) scale_cover

end Cert.KernelIdeal.Hand

end
-- ==== Proof.Relu.lean ====
/-
  The rectifier launch, as one function of the array it finds.

  The launch walks 20 row blocks of 5000 rows; at block t the body takes the maximum of each entry of the block with
  zero and the block is written back to the same rows of the output. So entry (r, c) of the output array is
  max(S(r, c), 0), and the blocks tile the 100000 rows.
-/
import proofs.«170171_j82815559402091_1_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The offsets of a whole-buffer access are all zero. -/
theorem off2_zero'' : (![0, 0] : Fin 2 → Nat) = fun _ => 0 := funext fun a => by fin_cases a <;> rfl

/-- The rectified array: each entry's maximum with the value of the zero word. -/
def reluOut (s : S100000x64.Idx → EReal) : S100000x64.Idx → EReal :=
  fun i => max (s i) (Ideal.ofBits .f32 0x00000000#32)

/-- What the body stores, at (p, q) of its block: the maximum of the block's entry with zero. -/
theorem relu_payload (x0 : Vec Ideal S5000x64 .f32) (p : Fin 5000) (q : Fin 64) :
    k2_pay1 (F := Ideal) x0 (ix2 p q) = max (x0 (ix2 p q)) (Ideal.ofBits .f32 0x00000000#32) := by
  unfold k2_pay1
  exact (maximumf_apply _ _ _).trans (congrArg₂ max (congrFun (shapeCast_self x0 _) _) rfl)

variable (V : (c : Dev nD) → (b : Ref sig .tc) → Buf (Elt Ideal) ((c : Thread nD τ).loc b))

/-- The launch's index maps over its 20 points: both blocks of point t are row block t. -/
theorem relu_idx : ∀ t : Fin cfg2.N,
    win2_0.index t 0 = t.val ∧ win2_0.index t 1 = 0 ∧ win2_1.index t 0 = t.val ∧ win2_1.index t 1 = 0 :=
  (by decide +kernel : ∀ t : Fin grid2.N, _)

/-- The input block of point t is rows 5000·t … 5000·t + 4999 of the input array. -/
theorem relu_s_block (c : Dev nD) (t : Fin cfg2.N) (y : S5000x64.Idx) (i : S100000x64.Idx)
    (h0 : (i 0).val = 5000 * t.val + (y 0).val) (h1 : (i 1).val = (y 1).val) :
    (iblk2 V c 0 t : S5000x64.Idx → EReal) y = (V c main_v13 : S100000x64.Idx → EReal) i := by
  obtain ⟨e0, e1, -⟩ := relu_idx t
  unfold iblk2
  rw [View.read_apply]
  refine congrArg (V c main_v13 : S100000x64.Idx → EReal) (funext fun a => Fin.ext ?_)
  match a with
  | ⟨0, _⟩ => show win2_0.index t 0 * 5000 + 1 * (y 0).val = (i 0).val; omega
  | ⟨1, _⟩ => show win2_0.index t 1 * 64 + 1 * (y 1).val = (i 1).val; omega

/-- What point t writes back is block t of `reluOut` of the array the launch finds. -/
theorem relu_flushed (c : Dev nD) (t : Fin cfg2.N) :
    (dat2 V c).flushed 1 t = ((cfg2.win 1).blk t).view.read (Elt Ideal) (reluOut (V c main_v13)) := by
  show (cfg2.win 1).cut (grid2.coords t) ((dat2 V c).after 1 t) = _
  rw [after2_1]
  unfold out2_1
  rw [View.canon_unit_zero off2_zero'']
  simp only [View.ld_unit_zero (S := S5000x64) off2_zero'']
  obtain ⟨-, -, e0, e1⟩ := relu_idx t
  funext j
  obtain ⟨p, q, rfl⟩ : ∃ (p : Fin 5000) (q : Fin 64), j = ix2 p q := ⟨j 0, j 1, eq_ix2 j⟩
  rw [View.read_apply]
  refine (relu_payload _ p q).trans ?_
  unfold reluOut
  have r0 : ((((cfg2.win 1).blk t).view.emb (ix2 p q)) 0).val = win2_1.index t 0 * 5000 + 1 * p.val := rfl
  have r1 : ((((cfg2.win 1).blk t).view.emb (ix2 p q)) 1).val = win2_1.index t 1 * 64 + 1 * q.val := rfl
  refine congrArg₂ max ?_ rfl
  exact relu_s_block V c t (ix2 p q) _ (by show _ = 5000 * t.val + p.val; rw [r0]; omega)
    (by show _ = q.val; rw [r1]; omega)

/-- An index of the output array is in point t's block iff each coordinate is in the block's range on its axis. -/
theorem relu_mem_blk (t : Fin cfg2.N) (i : S100000x64.Idx) :
    i ∈ ((cfg2.win 1).blk t).view.set ↔ ∀ a : Fin 2, win2_1.index t a * S5000x64.size a ≤ (i a).val
      ∧ (i a).val < win2_1.index t a * S5000x64.size a + S5000x64.size a := by
  show i ∈ ((View.whole main_v14).slice (win2_1.rect t)).set ↔ _
  rw [View.set_slice_whole, Rect.mem_set_unit]
  exact Iff.rfl

/-- Row r of the output array is in the block of point r / 5000, and every point writes its block back. -/
theorem relu_cover (i : S100000x64.Idx) :
    ∃ t : Fin cfg2.N, (cfg2.win 1).flush t = true ∧ i ∈ ((cfg2.win 1).blk t).view.set := by
  have hi0 : (i 0).val < 100000 := idx2_lt0 i
  have hi1 : (i 1).val < 64 := idx2_lt1 i
  have hN : cfg2.N = 20 := N_2
  have ht : (i 0).val / 5000 < cfg2.N := by rw [hN]; omega
  obtain ⟨-, -, e0, e1⟩ := relu_idx ⟨(i 0).val / 5000, ht⟩
  refine ⟨⟨(i 0).val / 5000, ht⟩, flush2_1 _, ?_⟩
  rw [relu_mem_blk]
  intro a
  match a with
  | ⟨0, _⟩ =>
    show win2_1.index ⟨(i 0).val / 5000, ht⟩ 0 * 5000 ≤ (i 0).val
      ∧ (i 0).val < win2_1.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_1.index ⟨(i 0).val / 5000, ht⟩ 1 * 64 ≤ (i 1).val
      ∧ (i 1).val < win2_1.index ⟨(i 0).val / 5000, ht⟩ 1 * 64 + 64
    rw [e1]; omega

/-- THE OUTPUT ARRAY of the rectifier launch, whatever array it is entered with. -/
theorem relu_final (c : Dev nD) :
    (dat2 V c).arrAt 1 cfg2.N = reluOut (V c main_v13) :=
  (dat2 V c).arrAt_eq_of_cover 1 _ (fun t _ => relu_flushed V c t) relu_cover

end Cert.KernelIdeal.Hand

end
-- ==== Proof.Fold.lean ====
/-
  The program's result as one function of its six arguments.

  Between the launches the host operations are pure functions of the buffers they read, and each launch's output array
  is its function of the arrays it finds.  Folding these from the launch memory: the bias is recast as a row and the
  dense-transform launch leaves  H = X·W + bias ; the source indices are wrapped (a negative index has the row count added)
  and the rows of H are gathered at them; the edge weights are recast as a column and the edge-scaling launch leaves
  Z(e, ·) = weight(e) · H[src(e), ·] ; Z is scatter-added into zeros at the destination indices; and the rectifier
  launch leaves the maximum of that with zero.
-/
import proofs.«170171_j82815559402091_1_alg».proof.Proof.Gen.KernelIdeal.Frame
import proofs.«170171_j82815559402091_1_alg».proof.Proof.Dense
import proofs.«170171_j82815559402091_1_alg».proof.Proof.Scale
import proofs.«170171_j82815559402091_1_alg».proof.Proof.Relu
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.StableHlo

/-- The source indices as the gather takes them: a negative index has the row count 100000 added, and the vector is
    laid out as a column of index vectors of length one. -/
def wrapSrc (src : S1600000.Idx → BitVec 32) : S1600000x1.Idx → BitVec 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The program's result: rectified scatter-add, at the destination indices, of the weighted gathered rows of the
    transformed features. -/
def kernelOut (x : S100000x64.Idx → EReal) (adj : S1600000.Idx → EReal) (w : S64x64.Idx → EReal) (b : S64.Idx → EReal)
    (src dst : S1600000.Idx → BitVec 32) : S100000x64.Idx → EReal :=
  reluOut (Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (scaleOut (shapeCast S1600000x1 adj shapeCasts_S1600000_S1600000x1)
      (Host.gather gather_S100000x64_S1600000x1_S1600000x64_1_0_n_n_0_1_164
        (denseOut x w (shapeCast S1x64 b shapeCasts_S64_S1x64)) (wrapSrc src))))

/-! ## The three stretches of host operations, from any contents -/

section Stretches
variable (W : Valuation τ sig (Elt Ideal))

theorem stretch0_v0 : after hostOps0 W (Proc.devRef .tc main_v0)
    = shapeCast S1x64 (W (Proc.devRef .tc main_arg3)) shapeCasts_S64_S1x64 := by
  after_results <;> rfl
theorem stretch0_arg0 : after hostOps0 W (Proc.devRef .tc main_arg0) = W (Proc.devRef .tc main_arg0) := by after_results
theorem stretch0_arg1 : after hostOps0 W (Proc.devRef .tc main_arg1) = W (Proc.devRef .tc main_arg1) := by after_results
theorem stretch0_arg2 : after hostOps0 W (Proc.devRef .tc main_arg2) = W (Proc.devRef .tc main_arg2) := by after_results
theorem stretch0_arg4 : after hostOps0 W (Proc.devRef .tc main_arg4) = W (Proc.devRef .tc main_arg4) := by after_results
theorem stretch0_arg5 : after hostOps0 W (Proc.devRef .tc main_arg5) = W (Proc.devRef .tc main_arg5) := by after_results

theorem stretch1_v8 : after hostOps1 W (Proc.devRef .tc main_v8)
    = Host.gather gather_S100000x64_S1600000x1_S1600000x64_1_0_n_n_0_1_164 (W (Proc.devRef .tc main_v1))
        (wrapSrc (W (Proc.devRef .tc main_arg4))) := by
  after_results <;> rfl
theorem stretch1_v9 : after hostOps1 W (Proc.devRef .tc main_v9)
    = shapeCast S1600000x1 (W (Proc.devRef .tc main_arg1)) shapeCasts_S1600000_S1600000x1 := by
  after_results <;> rfl
theorem stretch1_arg5 : after hostOps1 W (Proc.devRef .tc main_arg5) = W (Proc.devRef .tc main_arg5) := by after_results

theorem stretch2_v13 : after hostOps2 W (Proc.devRef .tc main_v13)
    = Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (W (Proc.devRef .tc main_arg5)))
        (W (Proc.devRef .tc main_v10)) := by
  after_results <;> rfl

end Stretches

/-! ## The fold from the launch memory -/

variable (m : (ℓ : Loc nD τ sig) → Buf (Elt Ideal) ℓ) (ρ : Dev nD → PrngReg)

/-! At the dense-transform launch's entry: the arguments as launched, the bias recast as a row. -/
theorem W1_arg0 (c : Dev nD) : W1 m ρ c (Proc.devRef .tc main_arg0) = m ((c : Thread nD τ).loc main_arg0) := stretch0_arg0 (W0 m ρ c)
theorem W1_arg1 (c : Dev nD) : W1 m ρ c (Proc.devRef .tc main_arg1) = m ((c : Thread nD τ).loc main_arg1) := stretch0_arg1 (W0 m ρ c)
theorem W1_arg2 (c : Dev nD) : W1 m ρ c (Proc.devRef .tc main_arg2) = m ((c : Thread nD τ).loc main_arg2) := stretch0_arg2 (W0 m ρ c)
theorem W1_arg4 (c : Dev nD) : W1 m ρ c (Proc.devRef .tc main_arg4) = m ((c : Thread nD τ).loc main_arg4) := stretch0_arg4 (W0 m ρ c)
theorem W1_arg5 (c : Dev nD) : W1 m ρ c (Proc.devRef .tc main_arg5) = m ((c : Thread nD τ).loc main_arg5) := stretch0_arg5 (W0 m ρ c)
theorem W1_v0 (c : Dev nD) : W1 m ρ c (Proc.devRef .tc main_v0)
    = shapeCast S1x64 (m ((c : Thread nD τ).loc main_arg3)) shapeCasts_S64_S1x64 := stretch0_v0 (W0 m ρ c)

/-! At its exit: the transformed features in its output array; the launch touches no other argument. -/
theorem W2_v1 (c : Dev nD) : W2 m ρ c (Proc.devRef .tc main_v1)
    = denseOut (m ((c : Thread nD τ).loc main_arg0)) (m ((c : Thread nD τ).loc main_arg2))
        (shapeCast S1x64 (m ((c : Thread nD τ).loc main_arg3)) shapeCasts_S64_S1x64) := by
  refine (W2_arr m ρ c 3).trans ((dense_final (V1 m ρ) c).trans ?_)
  show denseOut (W1 m ρ c (Proc.devRef .tc main_arg0)) (W1 m ρ c (Proc.devRef .tc main_arg2))
    (W1 m ρ c (Proc.devRef .tc main_v0)) = _
  rw [W1_arg0, W1_arg2, W1_v0]
theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! At the edge-scaling launch's entry: the gathered rows, the edge weights recast as a column. -/
theorem W3_v8 (c : Dev nD) : W3 m ρ c (Proc.devRef .tc main_v8)
    = Host.gather gather_S100000x64_S1600000x1_S1600000x64_1_0_n_n_0_1_164
        (denseOut (m ((c : Thread nD τ).loc main_arg0)) (m ((c : Thread nD τ).loc main_arg2))
          (shapeCast S1x64 (m ((c : Thread nD τ).loc main_arg3)) shapeCasts_S64_S1x64))
        (wrapSrc (m ((c : Thread nD τ).loc main_arg4))) := by
  refine (stretch1_v8 (W2 m ρ c)).trans ?_
  rw [W2_v1, W2_arg4]
theorem W3_v9 (c : Dev nD) : W3 m ρ c (Proc.devRef .tc main_v9)
    = shapeCast S1600000x1 (m ((c : Thread nD τ).loc main_arg1)) shapeCasts_S1600000_S1600000x1 := by
  refine (stretch1_v9 (W2 m ρ c)).trans ?_
  rw [W2_arg1]
theorem W3_arg5 (c : Dev nD) : W3 m ρ c (Proc.devRef .tc main_arg5) = m ((c : Thread nD τ).loc main_arg5) :=
  (stretch1_arg5 (W2 m ρ c)).trans (W2_arg5 m ρ c)

/-! At its exit: the weighted messages in its output array. -/
theorem W4_v10 (c : Dev nD) : W4 m ρ c (Proc.devRef .tc main_v10)
    = scaleOut (shapeCast S1600000x1 (m ((c : Thread nD τ).loc main_arg1)) shapeCasts_S1600000_S1600000x1)
        (Host.gather gather_S100000x64_S1600000x1_S1600000x64_1_0_n_n_0_1_164
          (denseOut (m ((c : Thread nD τ).loc main_arg0)) (m ((c : Thread nD τ).loc main_arg2))
            (shapeCast S1x64 (m ((c : Thread nD τ).loc main_arg3)) shapeCasts_S64_S1x64))
          (wrapSrc (m ((c : Thread nD τ).loc main_arg4)))) := by
  refine (W4_arr m ρ c 2).trans ((scale_final (V3 m ρ) c).trans ?_)
  show scaleOut (W3 m ρ c (Proc.devRef .tc main_v9)) (W3 m ρ c (Proc.devRef .tc main_v8)) = _
  rw [W3_v9, W3_v8]
theorem W4_arg5 (c : Dev nD) : W4 m ρ c (Proc.devRef .tc main_arg5) = m ((c : Thread nD τ).loc main_arg5) :=
  (W4_of_ne m ρ c main_arg5 (by decide)).trans (W3_arg5 m ρ c)

/-- THE RESULT BUFFER at the last boundary is `kernelOut` of the six arguments as launched. -/
theorem W6_v14 (c : Dev nD) : W6 m ρ c (Proc.devRef .tc main_v14)
    = kernelOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W6_arr m ρ c 1).trans ((relu_final (V5 m ρ) c).trans ?_)
  show reluOut (after hostOps2 (W4 m ρ c) (Proc.devRef .tc main_v13)) = _
  rw [stretch2_v13, W4_arg5, W4_v10]
  rfl

end Cert.KernelIdeal.Hand

end
-- ==== Proof.RefBridge.lean ====
/-
  The reference computes the same function of the six arguments.

  Operation by operation the reference is: the matrix product of the features with the weights plus the bias spread
  over the rows — entry (r, c) is Σ_k X(r, k) · W(k, c) + b(c), the transformed features —; the gather of its rows at
  the wrapped source indices; the product with the edge weights spread over the 64 columns; the scatter-add into zeros at
  the destination indices; the maximum with zero.  The gather, the scatter-add and the index wrapping are the very
  operations the launching program applies between its launches, so only what goes INTO them has to be compared: the
  transformed features entry by entry, the weighted messages entry by entry, and the rectifier entry by entry.
-/
import proofs.«170171_j82815559402091_1_alg».proof.Proof.Gen.ReferenceIdeal.Read
import proofs.«170171_j82815559402091_1_alg».proof.Proof.Fold
import proofs.«170171_j82815559402091_1_alg».proof.Proof.LibKeepdims
import Idealize.ShloMosaic.Lib.ValueLayout

set_option maxRecDepth 16384

noncomputable section

namespace Cert.Proof.Bridge

open Idealize.ShloMosaic Idealize.ShloMosaic.ValueIdx
open Cert.ReferenceIdeal.Read Cert.KernelIdeal.Hand

/-- A vector `[a]` cast to the row `[1, a]` reads, at `(u, i)`, the vector at `i`: both indices sit at row-major
    position `i`. -/
theorem shapeCast_a_1a_apply {α : Type} {a : ℕ} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

/-- The reference's product-plus-bias is the transformed features, entry by entry. -/
theorem ref_dense (x : Cert.ReferenceIdeal.S100000x64.Idx → EReal) (w : Cert.ReferenceIdeal.S64x64.Idx → EReal)
    (b : Cert.ReferenceIdeal.S64.Idx → EReal) :
    val_main_v3 (F := Ideal) x w b = denseOut x w (shapeCast Cert.KernelIdeal.S1x64 b Cert.KernelIdeal.Facts₀.shapeCasts_S64_S1x64) := by
  funext i
  rw [val_main_v3_apply, val_main_v0_apply, val_main_v2_apply, val_main_v1_apply]
  unfold denseOut
  refine congrArg₂ (· + ·) (Finset.sum_congr rfl fun k _ => congrArg₂ (· * ·) (congrArg x ?_) (congrArg w ?_)) ?_
  · funext a; apply Fin.ext
    match a with
    | ⟨0, _⟩ => rfl
    | ⟨1, _⟩ => rfl
  · funext a; apply Fin.ext
    match a with
    | ⟨0, _⟩ => rfl
    | ⟨1, _⟩ => rfl
  · refine ((shapeCast_a_1a_apply b _ 0 (i 1)).trans (congrArg b ?_)).symm
    funext a; apply Fin.ext
    match a with
    | ⟨0, _⟩ => rfl

/-- The reference's weighted messages are the edge-scaling launch's function of the same gathered rows. -/
theorem ref_scale (x : Cert.ReferenceIdeal.S100000x64.Idx → EReal) (adj : Cert.ReferenceIdeal.S1600000.Idx → EReal)
    (w : Cert.ReferenceIdeal.S64x64.Idx → EReal) (b : Cert.ReferenceIdeal.S64.Idx → EReal)
    (src : Cert.ReferenceIdeal.S1600000.Idx → BitVec 32) :
    val_main_v13 (F := Ideal) x adj w b src
      = scaleOut (shapeCast Cert.KernelIdeal.S1600000x1 adj Cert.KernelIdeal.Facts₀.shapeCasts_S1600000_S1600000x1)
          (Host.gather Cert.KernelIdeal.gather_S100000x64_S1600000x1_S1600000x64_1_0_n_n_0_1_164
            (denseOut x w (shapeCast Cert.KernelIdeal.S1x64 b Cert.KernelIdeal.Facts₀.shapeCasts_S64_S1x64)) (wrapSrc src)) := by
  funext i
  rw [val_main_v13_apply, val_main_v12_apply, val_main_v4_apply]
  unfold scaleOut
  refine congrArg₂ (· * ·) ?_ (congrFun ?_ i)
  · refine ((Cert.LibKeepdims.shapeCast_a_a1_apply adj _ (i 0) 0).trans (congrArg adj ?_)).symm
    funext a; apply Fin.ext
    match a with
    | ⟨0, _⟩ => rfl
  · unfold val_main_v11
    rw [ref_dense]
    rfl

/-- THE REFERENCE'S RESULT is `kernelOut` of the six arguments. -/
theorem ref_eq (x : Cert.ReferenceIdeal.S100000x64.Idx → EReal) (adj : Cert.ReferenceIdeal.S1600000.Idx → EReal)
    (w : Cert.ReferenceIdeal.S64x64.Idx → EReal) (b : Cert.ReferenceIdeal.S64.Idx → EReal)
    (src dst : Cert.ReferenceIdeal.S1600000.Idx → BitVec 32) :
    val_main_v17 (F := Ideal) x adj w b src dst = kernelOut x adj w b src dst := by
  unfold val_main_v17 kernelOut reluOut
  funext i
  refine (maximumf_apply _ _ _).trans (congrArg₂ max (congrFun ?_ i) ?_)
  · unfold val_main_v16
    rw [ref_scale]
    rfl
  · rw [val_main_call0_v0_apply, val_main_call0_cst_apply]
    rfl

end Cert.Proof.Bridge

end
-- ==== Proof.lean ====
/-
  The certificate of the graph-convolution program against its reference, at the ideal values.

  Both programs compute  relu( scatter_add_dst( weight(e) · H[src(e), ·] ) )  with  H = X·W + bias.  The launching
  program makes H in a tiled launch (a 5000-row block of X against the whole W per grid point, the operands' change of
  float format being the identity on the extended reals), gathers and scatter-adds on the host with the very operations
  the reference uses, scales the gathered rows by the edge weights in a second tiled launch and rectifies in a third.
  The three launches' output arrays are read off the generated frame run as whole-array functions (`Proof/Dense`,
  `Proof/Scale`, `Proof/Relu`), folded through the host operations between them (`Proof/Fold`), and the reference's
  generated run is shown to be the same function entry by entry where the two differ in spelling — the matrix product
  with the bias, the weighting, the rectifier — and by the identity of the shared gather / scatter-add everywhere else
  (`Proof/RefBridge`).  No arithmetic law beyond reading each operation at an index is used, so the finiteness
  precondition is never opened.  The ideal pass rewrote nothing in the launching program: its idealization claim is trivial.
  The frames of the two launching programs are the generated ones; the reference's is its generated run with the result
  dropped.
-/
import proofs.«170171_j82815559402091_1_alg».proof.Defs
import proofs.«170171_j82815559402091_1_alg».proof.Proof.Gen.Kernel
import proofs.«170171_j82815559402091_1_alg».proof.Proof.Gen.Kernel.Skeleton
import proofs.«170171_j82815559402091_1_alg».proof.Proof.Gen.Kernel.Launch
import proofs.«170171_j82815559402091_1_alg».proof.Proof.Gen.Kernel.Points
import proofs.«170171_j82815559402091_1_alg».proof.Proof.Gen.Kernel.Frame
import proofs.«170171_j82815559402091_1_alg».proof.Proof.Gen.KernelIdeal
import proofs.«170171_j82815559402091_1_alg».proof.Proof.Gen.KernelIdeal.Skeleton
import proofs.«170171_j82815559402091_1_alg».proof.Proof.Gen.KernelIdeal.Launch
import proofs.«170171_j82815559402091_1_alg».proof.Proof.Gen.KernelIdeal.Points
import proofs.«170171_j82815559402091_1_alg».proof.Proof.Gen.KernelIdeal.Frame
import proofs.«170171_j82815559402091_1_alg».proof.Proof.Gen.ReferenceIdeal
import proofs.«170171_j82815559402091_1_alg».proof.Proof.Gen.ReferenceIdeal.Run
import proofs.«170171_j82815559402091_1_alg».proof.Proof.Gen.ReferenceIdeal.Read
import proofs.«170171_j82815559402091_1_alg».proof.Proof.Gen.Pre_finite_inputs
import proofs.«170171_j82815559402091_1_alg».proof.Proof.MainRun
import proofs.«170171_j82815559402091_1_alg».proof.Proof.Fold
import proofs.«170171_j82815559402091_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the launching program. -/
theorem preserves : Cert.preserves_Kernel_KernelIdeal := trivial

/-- From memories that agree on the six arguments, both programs end with their result at the one function
    `kernelOut` of those arguments, and leave the arguments as launched. -/
theorem algebraic : Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.W6_v14 m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v17_eq, Cert.Proof.Bridge.ref_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
